-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x28x28 : Shape := ⟨4, ![64, 512, 28, 28]⟩
abbrev S128x512 : Shape := ⟨2, ![128, 512]⟩
abbrev S128 : Shape := ⟨1, ![128]⟩
abbrev S512x128 : Shape := ⟨2, ![512, 128]⟩
abbrev S512 : Shape := ⟨1, ![512]⟩
abbrev S_ : Shape := ⟨0, ![]⟩

class Facts : Prop where
  bcast_S_S64x512x28x28 : S_.BroadcastsInDim S64x512x28x28 (![] : Fin 0 → Fin S64x512x28x28.rank)
  reducesTo_S64x512x28x28_S_d0_1_2_3 : S64x512x28x28.ReducesTo [0, 1, 2, 3] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S64x512x28x28 .f32) (main_arg1 : FVec F S128x512 .f32) (main_arg2 : FVec F S128 .f32) (main_arg3 : FVec F S512x128 .f32) (main_arg4 : FVec F S512 .f32) : IVec S_ 1 :=
  let main_v0 : FVec F S64x512x28x28 .f32 := Host.absf main_arg0
  let main_cst : FVec F S_ .f32 := constant S_ .f32 0x7F800000#32
  let main_v1 : FVec F S64x512x28x28 .f32 := broadcastInDim S64x512x28x28 ![] bcast_S_S64x512x28x28 main_cst
  let main_v2 : IVec S64x512x28x28 1 := cmpf .olt main_v0 main_v1
  let main_c : IVec S_ 1 := constantI S_ 1 1#1
  let main_v3 : IVec S_ 1 := (fun x v => Host.reduce IntOp.andi x v reducesTo_S64x512x28x28_S_d0_1_2_3 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_v13 main_v16
-- ==== Kernel.lean ====
abbrev S64x512x28x28 : Shape := ⟨4, ![64, 512, 28, 28]⟩
abbrev S128x512 : Shape := ⟨2, ![128, 512]⟩
abbrev S128 : Shape := ⟨1, ![128]⟩
abbrev S512x128 : Shape := ⟨2, ![512, 128]⟩
abbrev S512 : Shape := ⟨1, ![512]⟩
abbrev S64x512x784 : Shape := ⟨3, ![64, 512, 784]⟩
abbrev S1x128 : Shape := ⟨2, ![1, 128]⟩
abbrev S1x512 : Shape := ⟨2, ![1, 512]⟩
abbrev S4x512x784 : Shape := ⟨3, ![4, 512, 784]⟩
abbrev S4x512 : Shape := ⟨2, ![4, 512]⟩
abbrev S4x128 : Shape := ⟨2, ![4, 128]⟩
abbrev S4x512x1 : Shape := ⟨3, ![4, 512, 1]⟩

abbrev nBuf : Space → Nat
  | .hbm => 12
  | .vmem => 8
  | .smem => 0
  | _ => 0

abbrev bufTy : (tb : Table) → Fin (tcTables nBuf tb) → BufTy
  | .hbm, ⟨0, _⟩ => ⟨S64x512x28x28, .f32⟩
  | .hbm, ⟨1, _⟩ => ⟨S128x512, .f32⟩
  | .hbm, ⟨2, _⟩ => ⟨S128, .f32⟩
  | .hbm, ⟨3, _⟩ => ⟨S512x128, .f32⟩
  | .hbm, ⟨4, _⟩ => ⟨S512, .f32⟩
  | .hbm, ⟨5, _⟩ => ⟨S64x512x784, .f32⟩
  | .hbm, ⟨6, _⟩ => ⟨S512x128, .f32⟩
  | .hbm, ⟨7, _⟩ => ⟨S128x512, .f32⟩
  | .hbm, ⟨8, _⟩ => ⟨S1x128, .f32⟩
  | .hbm, ⟨9, _⟩ => ⟨S1x512, .f32⟩
  | .hbm, ⟨10, _⟩ => ⟨S64x512x784, .f32⟩
  | .hbm, ⟨11, _⟩ => ⟨S64x512x28x28, .f32⟩
  | .local _ .vmem, ⟨0, _⟩ => ⟨S4x512x784, .f32⟩
  | .local _ .vmem, ⟨1, _⟩ => ⟨S4x512x784, .f32⟩
  | .local _ .vmem, ⟨2, _⟩ => ⟨S512x128, .f32⟩
  | .local _ .vmem, ⟨3, _⟩ => ⟨S1x128, .f32⟩
  | .local _ .vmem, ⟨4, _⟩ => ⟨S128x512, .f32⟩
  | .local _ .vmem, ⟨5, _⟩ => ⟨S1x512, .f32⟩
  | .local _ .vmem, ⟨6, _⟩ => ⟨S4x512x784, .f32⟩
  | .local _ .vmem, ⟨7, _⟩ => ⟨S4x512x784, .f32⟩
  | _, _ => ⟨S64x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x512x784 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x512x28x28_S64x512x784 : S64x512x28x28.ShapeCasts S64x512x784
  transposes_S128x512_S512x128_1_0 : S128x512.Transposes [1, 0] S512x128
  transposes_S512x128_S128x512_1_0 : S512x128.Transposes [1, 0] S128x512
  shapeCasts_S128_S1x128 : S128.ShapeCasts S1x128
  shapeCasts_S512_S1x512 : S512.ShapeCasts S1x512
  inb_S4x512x784_S4x512x784_0_0_0 : ∀ a, (![0, 0, 0] : Fin 3 → Nat) a + S4x512x784.size a ≤ S4x512x784.size a
  h_S4x512x784 : 0 < S4x512x784.numel
  shapeCasts_S4x512x784_S4x512x784 : S4x512x784.ShapeCasts S4x512x784
  reduces_S4x512x784_S4x512 : S4x512x784.Reduces [2] S4x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4x128 : S1x128.Broadcasts S4x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4x512 : S1x512.Broadcasts S4x512
  shapeCasts_S4x512_S4x512x1 : S4x512.ShapeCasts S4x512x1
  broadcasts_S4x512x1_S4x512x784 : S4x512x1.Broadcasts S4x512x784
  shapeCasts_S64x512x784_S64x512x28x28 : S64x512x784.ShapeCasts S64x512x28x28
  dot_S4x512_S512x128_S4x128_1_0_0_1_n_n_wf : DotDims.WF S4x512 S512x128 S4x128 [1] [0] [0] [1] [] []
  dot_S4x128_S128x512_S4x512_1_0_0_1_n_n_wf : DotDims.WF S4x128 S128x512 S4x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x784.size a ≤ S64x512x784.size a
  hwx0_0 : ∀ i : grid0.Coords, EltTy.bits .f32 = 32 ∨ (Rect.block (s := S64x512x784) S4x512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x512x784.size a ≤ S64x512x784.size a
  hwx0_5 : ∀ i : grid0.Coords, EltTy.bits .f32 = 32 ∨ (Rect.block (s := S64x512x784) S4x512x784.size (cc0_transform_5 i) (hinb0_5 i)).WholeWords (EltTy.packing .f32)

variable [Facts₀]

def dot_S4x512_S512x128_S4x128_1_0_0_1_n_n : DotDims S4x512 S512x128 S4x128 where
  lhsContracting := [1]
  rhsContracting := [0]
  lhsNonContracting := [0]
  rhsNonContracting := [1]
  lhsBatch := []
  rhsBatch := []
  wf := dot_S4x512_S512x128_S4x128_1_0_0_1_n_n_wf
def dot_S4x128_S128x512_S4x512_1_0_0_1_n_n : DotDims S4x128 S128x512 S4x512 where
  lhsContracting := [1]
  rhsContracting := [0]
  lhsNonContracting := [0]
  rhsNonContracting := [1]
  lhsBatch := []
  rhsBatch := []
  wf := dot_S4x128_S128x512_S4x512_1_0_0_1_n_n_wf

abbrev win0_0 : Pipeline.Window sig grid0 :=
  Pipeline.Window.ofSpec (Memref.whole main_v0) S4x512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4x512x784.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x512x28x28 : Shape := ⟨4, ![64, 512, 28, 28]⟩
abbrev S128x512 : Shape := ⟨2, ![128, 512]⟩
abbrev S128 : Shape := ⟨1, ![128]⟩
abbrev S512x128 : Shape := ⟨2, ![512, 128]⟩
abbrev S512 : Shape := ⟨1, ![512]⟩
abbrev S64x512x784 : Shape := ⟨3, ![64, 512, 784]⟩
abbrev S1x128 : Shape := ⟨2, ![1, 128]⟩
abbrev S512x1 : Shape := ⟨2, ![512, 1]⟩
abbrev S1x512x784 : Shape := ⟨3, ![1, 512, 784]⟩
abbrev S1x512 : Shape := ⟨2, ![1, 512]⟩
abbrev S1x512x1 : Shape := ⟨3, ![1, 512, 1]⟩
abbrev S1x512x128 : Shape := ⟨3, ![1, 512, 128]⟩
abbrev S1x1x128 : Shape := ⟨3, ![1, 1, 128]⟩

abbrev nBuf : Space → Nat
  | .hbm => 11
  | .vmem => 8
  | .smem => 0
  | _ => 0

abbrev bufTy : (tb : Table) → Fin (tcTables nBuf tb) → BufTy
  | .hbm, ⟨0, _⟩ => ⟨S64x512x28x28, .f32⟩
  | .hbm, ⟨1, _⟩ => ⟨S128x512, .f32⟩
  | .hbm, ⟨2, _⟩ => ⟨S128, .f32⟩
  | .hbm, ⟨3, _⟩ => ⟨S512x128, .f32⟩
  | .hbm, ⟨4, _⟩ => ⟨S512, .f32⟩
  | .hbm, ⟨5, _⟩ => ⟨S64x512x784, .f32⟩
  | .hbm, ⟨6, _⟩ => ⟨S512x128, .f32⟩
  | .hbm, ⟨7, _⟩ => ⟨S1x128, .f32⟩
  | .hbm, ⟨8, _⟩ => ⟨S512x1, .f32⟩
  | .hbm, ⟨9, _⟩ => ⟨S64x512x784, .f32⟩
  | .hbm, ⟨10, _⟩ => ⟨S64x512x28x28, .f32⟩
  | .local _ .vmem, ⟨0, _⟩ => ⟨S1x512x784, .f32⟩
  | .local _ .vmem, ⟨1, _⟩ => ⟨S1x512x784, .f32⟩
  | .local _ .vmem, ⟨2, _⟩ => ⟨S512x128, .f32⟩
  | .local _ .vmem, ⟨3, _⟩ => ⟨S1x128, .f32⟩
  | .local _ .vmem, ⟨4, _⟩ => ⟨S512x128, .f32⟩
  | .local _ .vmem, ⟨5, _⟩ => ⟨S512x1, .f32⟩
  | .local _ .vmem, ⟨6, _⟩ => ⟨S1x512x784, .f32⟩
  | .local _ .vmem, ⟨7, _⟩ => ⟨S1x512x784, .f32⟩
  | _, _ => ⟨S64x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x784 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x512x28x28_S64x512x784 : S64x512x28x28.ShapeCasts S64x512x784
  transposes_S128x512_S512x128_1_0 : S128x512.Transposes [1, 0] S512x128
  shapeCasts_S128_S1x128 : S128.ShapeCasts S1x128
  shapeCasts_S512_S512x1 : S512.ShapeCasts S512x1
  inb_S1x512x784_S1x512x784_0_0_0 : ∀ a, (![0, 0, 0] : Fin 3 → Nat) a + S1x512x784.size a ≤ S1x512x784.size a
  h_S1x512x784 : 0 < S1x512x784.numel
  shapeCasts_S1x512x784_S1x512x784 : S1x512x784.ShapeCasts S1x512x784
  reduces_S1x512x784_S1x512 : S1x512x784.Reduces [2] S1x512
  shapeCasts_S1x512_S1x512x1 : S1x512.ShapeCasts S1x512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x128_S1x512x128 : S512x128.ShapeCasts S1x512x128
  broadcasts_S1x512x1_S1x512x128 : S1x512x1.Broadcasts S1x512x128
  reduces_S1x512x128_S1x128 : S1x512x128.Reduces [1] S1x128
  shapeCasts_S1x128_S1x1x128 : S1x128.ShapeCasts S1x1x128
  broadcasts_S1x1x128_S1x512x128 : S1x1x128.Broadcasts S1x512x128
  reduces_S1x512x128_S1x512 : S1x512x128.Reduces [2] S1x512
  shapeCasts_S512x1_S1x512x1 : S512x1.ShapeCasts S1x512x1
  broadcasts_S1x512x1_S1x512x784 : S1x512x1.Broadcasts S1x512x784
  shapeCasts_S64x512x784_S64x512x28x28 : S64x512x784.ShapeCasts S64x512x28x28
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x784.size a ≤ S64x512x784.size a
  hwx0_0 : ∀ i : grid0.Coords, EltTy.bits .f32 = 32 ∨ (Rect.block (s := S64x512x784) S1x512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .f32 = 32 ∨ (Rect.block (s := S512x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x784.size a ≤ S64x512x784.size a
  hwx0_5 : ∀ i : grid0.Coords, EltTy.bits .f32 = 32 ∨ (Rect.block (s := S64x512x784) S1x512x784.size (cc0_transform_5 i) (hinb0_5 i)).WholeWords (EltTy.packing .f32)

variable [Facts₀]

abbrev win0_0 : Pipeline.Window sig grid0 :=
  Pipeline.Window.ofSpec (Memref.whole main_v0) S1x512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512x784.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibKeepdims.lean ====
/-
  Keepdims layouts and single-axis sums of rank-3 arrays, read at an index written by coordinates.

  A sum over one axis that keeps the axis as a unit axis is, in a kernel, a lane or sublane reduction followed by a
  shape cast that appends or inserts the unit axis, and its consumer broadcasts the unit axis back. Each of these
  operations reads its operand at an index whose coordinates are those of the result index with the unit coordinate
  dropped, added or set to zero; the sums range over the coordinates of the reduced axis.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-- A `[1, 1, b]` array broadcast to `[1, a, b]` reads, at `(u, i, r)`, the operand's one row at `r`. -/
theorem broadcastTo_11b_1ab_apply {a b : ℕ} (v : (⟨3, ![1, 1, b]⟩ : Shape).Idx → α)
    (h : (⟨3, ![1, 1, b]⟩ : Shape).Broadcasts ⟨3, ![1, a, b]⟩) (u : Fin 1) (i : Fin a) (r : Fin b) :
    broadcastTo ⟨3, ![1, a, b]⟩ v h (ix3 u i r) = v (ix3 (0 : Fin 1) (0 : Fin 1) r) := by
  refine broadcastTo_apply v h (ix3 u i r) (ix3 (0 : Fin 1) (0 : Fin 1) r) fun ax => ?_
  match ax with
  | ⟨0, _⟩ => exact (if_pos rfl).symm
  | ⟨1, _⟩ => exact (if_pos rfl).symm
  | ⟨2, _⟩ =>
    show r.val = if b = 1 then 0 else r.val
    split
    · have := r.isLt; omega
    · rfl

/-- The sum of an `[a, b, c]` array over its last axis reads, at `(i, j)`, the sum over `k` of the operand at
    `(i, j, k)`. At the ideal values. -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext
      (match ax with | ⟨0, _⟩ => rfl | ⟨1, _⟩ => rfl | ⟨2, _⟩ => rfl)))

/-- The sum of an `[a, b, c]` array over its middle axis reads, at `(i, r)`, the sum over `k` of the operand at
    `(i, k, r)`. At the ideal values. -/
theorem sum_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (r : Fin c) :
    multiReduction .add [1] ⟨2, ![a, c]⟩ src acc h hφ hacc (ix2 i r) = ∑ k : Fin b, src (ix3 i k r) :=
  (Ideal.multiReduction_add_single src acc h hφ hacc (ix2 i r)).trans
    (Finset.sum_congr rfl fun k _ => congrArg src (funext fun ax => Fin.ext
      (match ax with | ⟨0, _⟩ => rfl | ⟨1, _⟩ => rfl | ⟨2, _⟩ => rfl)))

end Cert.LibKeepdims
-- ==== Proof.SeGate.lean ====
/-
  The squeeze-and-excitation gate of one batch row, as a function of the row and of the two dense layers.

  For a row x(c, p) over C channels and HW positions, the channel means are s(c) = (∑ p, x(c, p)) · κ with κ the
  reciprocal of HW as the programs spell it. The first layer gives h0(r) = ∑ c, s(c) · W1ᵀ(c, r) + b1(r) and the hidden
  activation h(r) = h0(r) · σ(h0(r)), the second z(c) = ∑ r, h(r) · W2(c, r) + b2(c), and the gate is σ(z(c)), σ the
  logistic function. Every value is an extended real; the sums are finite sums of extended reals, whose order and
  grouping do not matter, and the only law used to join two spellings of the gate is the commutativity of the product.
-/
import Idealize.ShloMosaic.PureOps.Ideal.Laws
import Idealize.ShloMosaic.Lib.ValueIdx

noncomputable section

namespace Cert.SeGate

open Idealize.ShloMosaic Idealize.ShloMosaic.ValueIdx

/-- The reciprocal of the number of positions, as both programs spell it: one float literal, read at the ideal values. -/
def kappa : EReal := (Scalar.ofBits (F := Ideal) .f32 0x3AA72F05#32 : Ideal .f32)

variable {C HW Cr : ℕ}

/-- The mean of channel `c` of the row: the sum over the positions times the reciprocal literal. -/
def mean (xr : Fin C → Fin HW → EReal) (c : Fin C) : EReal := (∑ p : Fin HW, xr c p) * kappa

/-- The first layer before its activation. -/
def pre1 (xr : Fin C → Fin HW → EReal) (w1t : Fin C → Fin Cr → EReal) (b1 : Fin Cr → EReal) (r : Fin Cr) : EReal :=
  (∑ c : Fin C, mean xr c * w1t c r) + b1 r

/-- The hidden activation: the first layer times its own logistic. -/
def hidden (xr : Fin C → Fin HW → EReal) (w1t : Fin C → Fin Cr → EReal) (b1 : Fin Cr → EReal) (r : Fin Cr) : EReal :=
  pre1 xr w1t b1 r * Ideal.logistic (pre1 xr w1t b1 r)

/-- The gate of channel `c`: the logistic of the second layer. -/
def gate (xr : Fin C → Fin HW → EReal) (w1t : Fin C → Fin Cr → EReal) (b1 : Fin Cr → EReal)
    (w2 : Fin C → Fin Cr → EReal) (b2 : Fin C → EReal) (c : Fin C) : EReal :=
  Ideal.logistic ((∑ r : Fin Cr, hidden xr w1t b1 r * w2 c r) + b2 c)

/-- The same gate with the second layer's products written weight first: the product of extended reals commutes. -/
theorem gate_eq_weight_first (xr : Fin C → Fin HW → EReal) (w1t : Fin C → Fin Cr → EReal) (b1 : Fin Cr → EReal)
    (w2 : Fin C → Fin Cr → EReal) (b2 : Fin C → EReal) (c : Fin C) :
    Ideal.logistic ((∑ r : Fin Cr, w2 c r * hidden xr w1t b1 r) + b2 c) = gate xr w1t b1 w2 b2 c := by
  unfold gate
  exact congrArg (fun s => Ideal.logistic (s + b2 c)) (Finset.sum_congr rfl fun r _ => mul_comm _ _)

/-- The whole result at batch row `b`, channel `c`, position `p`: the element of x times the gate of its row and channel. -/
def scaled {B : ℕ} (X : (⟨3, ![B, C, HW]⟩ : Shape).Idx → EReal) (w1t : Fin C → Fin Cr → EReal) (b1 : Fin Cr → EReal)
    (w2 : Fin C → Fin Cr → EReal) (b2 : Fin C → EReal) (b : Fin B) (c : Fin C) (p : Fin HW) : EReal :=
  X (ix3 b c p) * gate (fun c' p' => X (ix3 b c' p')) w1t b1 w2 b2 c

/-- The whole result as an array: `scaled` at the coordinates of the index. -/
def scaledArr {B : ℕ} (X : (⟨3, ![B, C, HW]⟩ : Shape).Idx → EReal) (w1t : Fin C → Fin Cr → EReal) (b1 : Fin Cr → EReal)
    (w2 : Fin C → Fin Cr → EReal) (b2 : Fin C → EReal) : (⟨3, ![B, C, HW]⟩ : Shape).Idx → EReal :=
  fun i => scaled X w1t b1 w2 b2 (i 0) (i 1) (i 2)

theorem scaledArr_apply {B : ℕ} (X : (⟨3, ![B, C, HW]⟩ : Shape).Idx → EReal) (w1t : Fin C → Fin Cr → EReal) (b1 : Fin Cr → EReal)
    (w2 : Fin C → Fin Cr → EReal) (b2 : Fin C → EReal) (b : Fin B) (c : Fin C) (p : Fin HW) :
    scaledArr X w1t b1 w2 b2 (ix3 b c p) = scaled X w1t b1 w2 b2 b c p := rfl

end Cert.SeGate

end
-- ==== Proof.SeKernelPay.lean ====
/-
  The batch-tiled kernel's body, read at an index.

  The body holds a block of four batch rows x0(b, c, p), the transposed first-layer weights x1(c, r), the first bias
  x2(0, r), the transposed second-layer weights x3(r, c) and the second bias x4(0, c). It takes the channel means of
  each row, two matrix products into zero accumulators with the hidden activation between them, and scales every
  position of the row by the logistic of the second product. Stage by stage the values are named, read at an index,
  and the stored value at (b, c, p) is x0(b, c, p) times the gate of row b at channel c.
-/
import proofs.«162208_g2000506799508755_pallasbulk_1325_14_alg».proof.Proof.Gen.KernelIdeal.Skeleton
import proofs.«162208_g2000506799508755_pallasbulk_1325_14_alg».proof.Proof.LibMatmulPlain
import proofs.«162208_g2000506799508755_pallasbulk_1325_14_alg».proof.Proof.LibKeepdims
import proofs.«162208_g2000506799508755_pallasbulk_1325_14_alg».proof.Proof.SeGate
import Idealize.ShloMosaic.Lib.ValueLayout
import Idealize.ShloMosaic.Lib.Pipeline.Value

noncomputable section

namespace Cert.KernelIdeal.SePay

open Idealize.ShloMosaic Idealize.ShloMosaic.ValueIdx Cert.KernelIdeal Cert.KernelIdeal.Gen Cert.SeGate

variable (x0 : FVec Ideal S4x512x784 .f32) (x1 : FVec Ideal S512x128 .f32) (x2 : FVec Ideal S1x128 .f32)
  (x3 : FVec Ideal S128x512 .f32) (x4 : FVec Ideal S1x512 .f32)

/-- The channel means of the four rows. -/
def means : FVec Ideal S4x512 .f32 :=
  mulf (multiReduction .add [2] S4x512 (shapeCast S4x512x784 x0 shapeCasts_S4x512x784_S4x512x784) 0x00000000#32
      reduces_S4x512x784_S4x512 (.inl rfl) rfl)
    (broadcast S4x512 (Scalar.ofBits (F := Ideal) .f32 0x3AA72F05#32))

/-- The first layer before its activation. -/
def layer1 : FVec Ideal S4x128 .f32 :=
  addf (matmul dot_S4x512_S512x128_S4x128_1_0_0_1_n_n none (means x0) (shapeCast S512x128 x1 shapeCasts_S512x128_S512x128)
      (constant (F := Ideal) S4x128 .f32 0x00000000#32))
    (broadcastTo S4x128 (shapeCast S1x128 x2 shapeCasts_S1x128_S1x128) broadcasts_S1x128_S4x128)

/-- The hidden activation. -/
def act : FVec Ideal S4x128 .f32 := mulf (layer1 x0 x1 x2) (logistic (layer1 x0 x1 x2))

/-- The gates of the four rows. -/
def gates : FVec Ideal S4x512 .f32 :=
  logistic (addf (matmul dot_S4x128_S128x512_S4x512_1_0_0_1_n_n none (act x0 x1 x2) (shapeCast S128x512 x3 shapeCasts_S128x512_S128x512)
      (constant (F := Ideal) S4x512 .f32 0x00000000#32))
    (broadcastTo S4x512 (shapeCast S1x512 x4 shapeCasts_S1x512_S1x512) broadcasts_S1x512_S4x512))

/-- The stored value is the block scaled by its rows' gates. -/
theorem pay_eq : k0_pay1 (F := Ideal) x0 x1 x2 x3 x4
    = mulf (shapeCast S4x512x784 x0 shapeCasts_S4x512x784_S4x512x784)
        (broadcastTo S4x512x784 (shapeCast S4x512x1 (gates x0 x1 x2 x3 x4) shapeCasts_S4x512_S4x512x1) broadcasts_S4x512x1_S4x512x784) := rfl

/-- The mean of row `b` at channel `c`. -/
theorem means_apply (b : Fin 4) (c : Fin 512) :
    means x0 (ix2 b c) = mean (fun c' p' => x0 (ix3 b c' p')) c := by
  show multiReduction .add [2] S4x512 (shapeCast S4x512x784 x0 shapeCasts_S4x512x784_S4x512x784) 0x00000000#32
      reduces_S4x512x784_S4x512 (.inl rfl) rfl (ix2 b c) * kappa = _
  refine congrArg (· * kappa) ((Cert.LibKeepdims.sum_last_apply _ _ _ _ _ b c).trans ?_)
  exact Finset.sum_congr rfl fun p _ => congrFun (shapeCast_self x0 _) (ix3 b c p)

/-- The first layer of row `b` at hidden unit `r`. -/
theorem layer1_apply (b : Fin 4) (r : Fin 128) :
    layer1 x0 x1 x2 (ix2 b r)
      = pre1 (fun c' p' => x0 (ix3 b c' p')) (fun c' r' => x1 (ix2 c' r')) (fun r' => x2 (ix2 (0 : Fin 1) r')) r := by
  have hm : matmul dot_S4x512_S512x128_S4x128_1_0_0_1_n_n none (means x0) (shapeCast S512x128 x1 shapeCasts_S512x128_S512x128)
      (constant (F := Ideal) S4x128 .f32 0x00000000#32) (ix2 b r) = ∑ c' : Fin 512, means x0 (ix2 b c') * x1 (ix2 c' r) :=
    (Cert.LibMatmulPlain.matmul_plain_zero_apply none (means x0) (shapeCast S512x128 x1 shapeCasts_S512x128_S512x128) b r).trans
      (Finset.sum_congr rfl fun c' _ => congrArg (means x0 (ix2 b c') * ·) (congrFun (shapeCast_self x1 _) (ix2 c' r)))
  have hb : broadcastTo S4x128 (shapeCast S1x128 x2 shapeCasts_S1x128_S1x128) broadcasts_S1x128_S4x128 (ix2 b r) = x2 (ix2 (0 : Fin 1) r) :=
    (broadcastTo_1b_ab_apply _ _ b r).trans (congrFun (shapeCast_self x2 _) _)
  show _ + _ = _
  rw [hm, hb]
  unfold pre1
  exact congrArg (· + x2 (ix2 (0 : Fin 1) r)) (Finset.sum_congr rfl fun c' _ => congrArg (· * x1 (ix2 c' r)) (means_apply x0 b c'))

/-- The hidden activation of row `b` at unit `r`. -/
theorem act_apply (b : Fin 4) (r : Fin 128) :
    act x0 x1 x2 (ix2 b r)
      = hidden (fun c' p' => x0 (ix3 b c' p')) (fun c' r' => x1 (ix2 c' r')) (fun r' => x2 (ix2 (0 : Fin 1) r')) r := by
  show layer1 x0 x1 x2 (ix2 b r) * Ideal.logistic (layer1 x0 x1 x2 (ix2 b r)) = _
  rw [layer1_apply]
  rfl

/-- The gate of row `b` at channel `c`; the second layer's weights are read transposed. -/
theorem gates_apply (b : Fin 4) (c : Fin 512) :
    gates x0 x1 x2 x3 x4 (ix2 b c)
      = gate (fun c' p' => x0 (ix3 b c' p')) (fun c' r' => x1 (ix2 c' r')) (fun r' => x2 (ix2 (0 : Fin 1) r'))
          (fun c' r' => x3 (ix2 r' c')) (fun c' => x4 (ix2 (0 : Fin 1) c')) c := by
  have hm : matmul dot_S4x128_S128x512_S4x512_1_0_0_1_n_n none (act x0 x1 x2) (shapeCast S128x512 x3 shapeCasts_S128x512_S128x512)
      (constant (F := Ideal) S4x512 .f32 0x00000000#32) (ix2 b c) = ∑ r' : Fin 128, act x0 x1 x2 (ix2 b r') * x3 (ix2 r' c) :=
    (Cert.LibMatmulPlain.matmul_plain_zero_apply none (act x0 x1 x2) (shapeCast S128x512 x3 shapeCasts_S128x512_S128x512) b c).trans
      (Finset.sum_congr rfl fun r' _ => congrArg (act x0 x1 x2 (ix2 b r') * ·) (congrFun (shapeCast_self x3 _) (ix2 r' c)))
  have hb : broadcastTo S4x512 (shapeCast S1x512 x4 shapeCasts_S1x512_S1x512) broadcasts_S1x512_S4x512 (ix2 b c) = x4 (ix2 (0 : Fin 1) c) :=
    (broadcastTo_1b_ab_apply _ _ b c).trans (congrFun (shapeCast_self x4 _) _)
  show Ideal.logistic (_ + _) = _
  rw [hm, hb]
  unfold gate
  exact congrArg (fun s => Ideal.logistic (s + x4 (ix2 (0 : Fin 1) c)))
    (Finset.sum_congr rfl fun r' _ => congrArg (· * x3 (ix2 r' c)) (act_apply x0 x1 x2 b r'))

/-- THE STORED VALUE at row `b`, channel `c`, position `p`: the block's element times the gate of its row and channel. -/
theorem pay_apply (b : Fin 4) (c : Fin 512) (p : Fin 784) :
    k0_pay1 (F := Ideal) x0 x1 x2 x3 x4 (ix3 b c p)
      = x0 (ix3 b c p) * gate (fun c' p' => x0 (ix3 b c' p')) (fun c' r' => x1 (ix2 c' r')) (fun r' => x2 (ix2 (0 : Fin 1) r'))
          (fun c' r' => x3 (ix2 r' c')) (fun c' => x4 (ix2 (0 : Fin 1) c')) c := by
  rw [pay_eq]
  show shapeCast S4x512x784 x0 shapeCasts_S4x512x784_S4x512x784 (ix3 b c p)
      * broadcastTo S4x512x784 (shapeCast S4x512x1 (gates x0 x1 x2 x3 x4) shapeCasts_S4x512_S4x512x1) broadcasts_S4x512x1_S4x512x784 (ix3 b c p) = _
  rw [shapeCast_self, Cert.LibKeepdims.broadcastTo_ab1_abc_apply, Cert.LibKeepdims.shapeCast_ab_ab1_apply, gates_apply]

end Cert.KernelIdeal.SePay

end
-- ==== Proof.SeKernelArr.lean ====
/-
  The batch-tiled kernel's output array after the run.

  Grid point t handles the four batch rows 4t, …, 4t + 3: its input block of x and its output block are those rows of
  the arrays, and the weight and bias windows are the whole arrays at every point. What point t writes back is
  therefore the block of ONE function of the arrays the region finds: every element of x scaled by the gate of its own
  batch row and channel. The sixteen blocks tile the 64 rows, so the array ends holding that function.
-/
import proofs.«162208_g2000506799508755_pallasbulk_1325_14_alg».proof.Proof.Gen.KernelIdeal.Frame
import proofs.«162208_g2000506799508755_pallasbulk_1325_14_alg».proof.Proof.SeKernelPay
import Idealize.ShloMosaic.Lib.Pipeline.Value
import Idealize.ShloMosaic.Lib.StableHlo.Run
import Idealize.ShloMosaic.Lib.ValueLayout

set_option maxRecDepth 16384

noncomputable section

namespace Cert.KernelIdeal.SeArr

open Idealize.ShloMosaic Idealize.ShloMosaic.TcCoe Idealize.ShloMosaic.ValueIdx Idealize.SL.Sem
open Cert.KernelIdeal Cert.KernelIdeal.Gen Cert.SeGate
open Idealize.ShloMosaic.Pipeline (Dat Cfg Window)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The output array as a function of the arrays the region finds: x, the transposed first-layer weights, the first
    bias as a row, the transposed second-layer weights, the second bias as a row. -/
def scaledOf (X : FVec Ideal S64x512x784 .f32) (W1t : FVec Ideal S512x128 .f32) (B1 : FVec Ideal S1x128 .f32)
    (W2t : FVec Ideal S128x512 .f32) (B2 : FVec Ideal S1x512 .f32) : S64x512x784.Idx → EReal :=
  scaledArr X (fun c' r' => W1t (ix2 c' r')) (fun r' => B1 (ix2 (0 : Fin 1) r')) (fun c' r' => W2t (ix2 r' c'))
    (fun c' => B2 (ix2 (0 : Fin 1) c'))

/-- A block of four consecutive batch rows, rows 4T onwards, with the whole weight and bias arrays: the body's stored
    value at a block index is the output function at the array index the block index stands for. -/
theorem block_value (X : FVec Ideal S64x512x784 .f32) (W1t : FVec Ideal S512x128 .f32) (B1 : FVec Ideal S1x128 .f32)
    (W2t : FVec Ideal S128x512 .f32) (B2 : FVec Ideal S1x512 .f32)
    (x0 : FVec Ideal S4x512x784 .f32) (x1 : FVec Ideal S512x128 .f32) (x2 : FVec Ideal S1x128 .f32)
    (x3 : FVec Ideal S128x512 .f32) (x4 : FVec Ideal S1x512 .f32) (T : ℕ) (e : S4x512x784.Idx → S64x512x784.Idx)
    (he0 : ∀ y, (e y 0).val = T * 4 + (y 0).val) (he1 : ∀ y, (e y 1).val = (y 1).val) (he2 : ∀ y, (e y 2).val = (y 2).val)
    (h0 : ∀ y, x0 y = X (e y)) (h1 : x1 = W1t) (h2 : x2 = B1) (h3 : x3 = W2t) (h4 : x4 = B2) (j : S4x512x784.Idx) :
    k0_pay1 (F := Ideal) x0 x1 x2 x3 x4 j = scaledOf X W1t B1 W2t B2 (e j) := by
  subst h1 h2 h3 h4
  obtain ⟨b, c, p, rfl⟩ : ∃ (b : Fin 4) (c : Fin 512) (p : Fin 784), j = ix3 b c p := ⟨j 0, j 1, j 2, eq_ix3 j⟩
  rw [SePay.pay_apply]
  have hlt : (e (ix3 b c p) 0).val < 64 := (e (ix3 b c p) 0).isLt
  have hv : (e (ix3 b c p) 0).val = T * 4 + b.val := he0 (ix3 b c p)
  have hB : T * 4 + b.val < 64 := by omega
  have hE : ∀ (c' : Fin 512) (p' : Fin 784), e (ix3 b c' p') = ix3 (⟨T * 4 + b.val, hB⟩ : Fin 64) c' p' := fun c' p' =>
    funext fun a => Fin.ext (match a with | ⟨0, _⟩ => he0 _ | ⟨1, _⟩ => he1 _ | ⟨2, _⟩ => he2 _)
  have hrow : (fun (c' : Fin 512) (p' : Fin 784) => x0 (ix3 b c' p'))
      = fun c' p' => X (ix3 (⟨T * 4 + b.val, hB⟩ : Fin 64) c' p') :=
    funext fun c' => funext fun p' => (h0 _).trans (congrArg X (hE c' p'))
  rw [hE c p]
  unfold scaledOf
  rw [scaledArr_apply]
  unfold scaled
  rw [h0 (ix3 b c p), hE c p, hrow]

/-- The printed index maps over the grid: the two windows of x move one block of four rows per point, the weight and
    bias windows stay at the origin. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- WHAT POINT `t` WRITES BACK is block `t` of the output function of the arrays as the region finds them. -/
theorem flushed_eq (c : Dev nD) (t : Fin cfg0.N) :
    (dats (F := Ideal) m 0 c).flushed 5 t = ((cfg0.win 5).blk t).view.read (Elt Ideal)
      (scaledOf (V m c main_v0) (V m c main_v1) (V m c main_v3) (V m c main_v2) (V m c main_v4)) := by
  show (cfg0.win 5).cut (grid0.coords t) ((dats m 0 c).after 5 t) = _
  rw [after0_5]
  unfold out0_5
  rw [View.canon_unit_zero zero3]
  simp only [View.ld_unit_zero (S := S4x512x784) zero3, View.ld_unit_zero (S := S512x128) zero2,
    View.ld_unit_zero (S := S1x128) zero2, View.ld_unit_zero (S := S128x512) zero2, View.ld_unit_zero (S := S1x512) zero2]
  obtain ⟨a00, a01, a02, a50, a51, a52, a10, a11, a20, a21, a30, a31, a40, a41⟩ := idx_facts t
  funext j
  show k0_pay1 (F := Ideal) (iblk m c 0 t) (iblk m c 1 t) (iblk m c 2 t) (iblk m c 3 t) (iblk m c 4 t) j
      = scaledOf (V m c main_v0) (V m c main_v1) (V m c main_v3) (V m c main_v2) (V m c main_v4) (((cfg0.win 5).blk t).view.emb j)
  refine block_value (V m c main_v0) (V m c main_v1) (V m c main_v3) (V m c main_v2) (V m c main_v4)
    (iblk m c 0 t) (iblk m c 1 t) (iblk m c 2 t) (iblk m c 3 t) (iblk m c 4 t) t.val (((cfg0.win 5).blk t).view.emb)
    ?_ ?_ ?_ ?_ ?_ ?_ ?_ ?_ j
  · intro y
    show win0_5.index t (0 : Fin 3) * 4 + 1 * (y 0).val = t.val * 4 + (y 0).val
    omega
  · intro y
    show win0_5.index t (1 : Fin 3) * 512 + 1 * (y 1).val = (y 1).val
    omega
  · intro y
    show win0_5.index t (2 : Fin 3) * 784 + 1 * (y 2).val = (y 2).val
    omega
  · intro y
    show V m c main_v0 (((cfg0.win 0).blk t).view.emb y) = V m c main_v0 (((cfg0.win 5).blk t).view.emb y)
    refine congrArg _ (funext fun a => Fin.ext ?_)
    match a with
    | ⟨0, _⟩ =>
      show win0_0.index t (0 : Fin 3) * 4 + 1 * (y 0).val = win0_5.index t (0 : Fin 3) * 4 + 1 * (y 0).val
      omega
    | ⟨1, _⟩ =>
      show win0_0.index t (1 : Fin 3) * 512 + 1 * (y 1).val = win0_5.index t (1 : Fin 3) * 512 + 1 * (y 1).val
      omega
    | ⟨2, _⟩ =>
      show win0_0.index t (2 : Fin 3) * 784 + 1 * (y 2).val = win0_5.index t (2 : Fin 3) * 784 + 1 * (y 2).val
      omega
  · funext y
    show V m c main_v1 (((cfg0.win 1).blk t).view.emb y) = V m c main_v1 y
    refine congrArg _ (funext fun a => Fin.ext ?_)
    match a with
    | ⟨0, _⟩ => show win0_1.index t (0 : Fin 2) * 512 + 1 * (y 0).val = (y 0).val; omega
    | ⟨1, _⟩ => show win0_1.index t (1 : Fin 2) * 128 + 1 * (y 1).val = (y 1).val; omega
  · funext y
    show V m c main_v3 (((cfg0.win 2).blk t).view.emb y) = V m c main_v3 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · funext y
    show V m c main_v2 (((cfg0.win 3).blk t).view.emb y) = V m c main_v2 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 512 + 1 * (y 1).val = (y 1).val; omega
  · funext y
    show V m c main_v4 (((cfg0.win 4).blk t).view.emb y) = V m c main_v4 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 512 + 1 * (y 1).val = (y 1).val; omega

/-- An index of the array is in point `t`'s block iff each coordinate is in the block's range on its axis. -/
theorem mem_blk (t : Fin cfg0.N) (i : S64x512x784.Idx) :
    i ∈ ((cfg0.win 5).blk t).view.set ↔ ∀ a : Fin 3, win0_5.index t a * S4x512x784.size a ≤ (i a).val
      ∧ (i a).val < win0_5.index t a * S4x512x784.size a + S4x512x784.size a := by
  show i ∈ ((View.whole main_v5).slice (win0_5.rect t)).set ↔ _
  rw [View.set_slice_whole, Rect.mem_set_unit]
  exact Iff.rfl

/-- Every index of the array lies in the block of the point its batch row belongs to: row B is in block B / 4. -/
theorem cover (i : S64x512x784.Idx) :
    ∃ t : Fin cfg0.N, (cfg0.win 5).flush t = true ∧ i ∈ ((cfg0.win 5).blk t).view.set := by
  have h0 : (i 0).val < 64 := (i 0).isLt
  have h1 : (i 1).val < 512 := (i 1).isLt
  have h2 : (i 2).val < 784 := (i 2).isLt
  have hN : grid0.N = 16 := N_0
  have ht : (i 0).val / 4 < grid0.N := by omega
  obtain ⟨-, -, -, a50, a51, a52, -⟩ := idx_facts (⟨(i 0).val / 4, ht⟩ : Fin cfg0.N)
  refine ⟨⟨(i 0).val / 4, ht⟩, flush0_5 _, ?_⟩
  rw [mem_blk]
  intro a
  match a with
  | ⟨0, _⟩ =>
    show win0_5.index ⟨(i 0).val / 4, ht⟩ (0 : Fin 3) * 4 ≤ (i 0).val ∧ (i 0).val < win0_5.index ⟨(i 0).val / 4, ht⟩ (0 : Fin 3) * 4 + 4
    have hv : win0_5.index ⟨(i 0).val / 4, ht⟩ (0 : Fin 3) = (i 0).val / 4 := a50
    omega
  | ⟨1, _⟩ =>
    show win0_5.index ⟨(i 0).val / 4, ht⟩ (1 : Fin 3) * 512 ≤ (i 1).val ∧ (i 1).val < win0_5.index ⟨(i 0).val / 4, ht⟩ (1 : Fin 3) * 512 + 512
    omega
  | ⟨2, _⟩ =>
    show win0_5.index ⟨(i 0).val / 4, ht⟩ (2 : Fin 3) * 784 ≤ (i 2).val ∧ (i 2).val < win0_5.index ⟨(i 0).val / 4, ht⟩ (2 : Fin 3) * 784 + 784
    omega

/-- THE ARRAY after the run: the output function of the arrays the region finds. -/
theorem final (c : Dev nD) :
    (dats (F := Ideal) m 0 c).arrAt 5 cfg0.N
      = scaledOf (V m c main_v0) (V m c main_v1) (V m c main_v3) (V m c main_v2) (V m c main_v4) :=
  (dats m 0 c).arrAt_eq_of_cover 5 _ (fun t _ => flushed_eq m c t) cover

end Cert.KernelIdeal.SeArr

end
-- ==== Proof.SeWhole.lean ====
/-
  The squeeze-and-excitation block over the whole argument arrays.

  From x of shape [64, 512, 28, 28], the first layer's weights W1(r, c) and bias b1(r), the second layer's weights
  W2(c, r) and bias b2(c): the two spatial axes of x are merged into 784 positions, every element is scaled by the
  gate of its batch row and channel, and the positions are split back into 28 by 28. The gate reads W1 transposed,
  W2 as given, and the biases at their one coordinate.
-/
import proofs.«162208_g2000506799508755_pallasbulk_1325_14_alg».proof.Proof.SeGate
import Idealize.ShloMosaic.Lib.Pipeline.Value

noncomputable section

namespace Cert.SeGate

open Idealize.ShloMosaic Idealize.ShloMosaic.ValueIdx

/-- The result with the positions still merged: x scaled by its gates, over the raw weights and biases. -/
def merged (X : FVec Ideal ⟨3, ![64, 512, 784]⟩ .f32) (a1 : FVec Ideal ⟨2, ![128, 512]⟩ .f32) (a2 : FVec Ideal ⟨1, ![128]⟩ .f32)
    (a3 : FVec Ideal ⟨2, ![512, 128]⟩ .f32) (a4 : FVec Ideal ⟨1, ![512]⟩ .f32) : (⟨3, ![64, 512, 784]⟩ : Shape).Idx → EReal :=
  scaledArr X (fun c r => a1 (ix2 r c)) (fun r => a2 (ix1 r)) (fun c r => a3 (ix2 c r)) (fun c => a4 (ix1 c))

/-- The whole result: merge the positions of x, scale, split the positions back. -/
def whole (a0 : FVec Ideal ⟨4, ![64, 512, 28, 28]⟩ .f32) (a1 : FVec Ideal ⟨2, ![128, 512]⟩ .f32) (a2 : FVec Ideal ⟨1, ![128]⟩ .f32)
    (a3 : FVec Ideal ⟨2, ![512, 128]⟩ .f32) (a4 : FVec Ideal ⟨1, ![512]⟩ .f32)
    (hin : (⟨4, ![64, 512, 28, 28]⟩ : Shape).ShapeCasts ⟨3, ![64, 512, 784]⟩)
    (hout : (⟨3, ![64, 512, 784]⟩ : Shape).ShapeCasts ⟨4, ![64, 512, 28, 28]⟩) : (⟨4, ![64, 512, 28, 28]⟩ : Shape).Idx → EReal :=
  shapeCast ⟨4, ![64, 512, 28, 28]⟩ (merged (shapeCast ⟨3, ![64, 512, 784]⟩ a0 hin) a1 a2 a3 a4) hout

end Cert.SeGate

end
-- ==== Proof.SeKernelRun.lean ====
/-
  The batch-tiled program's run, with its result named.

  Before the kernel the program merges the two spatial axes of x, transposes both weight matrices and turns each bias
  into a row; after it, it splits the positions back. Reading the transposes and the rows at an index, the array the
  kernel leaves is the merged result over the raw arguments, and the program's result is the whole result.
-/
import proofs.«162208_g2000506799508755_pallasbulk_1325_14_alg».proof.Proof.SeKernelArr
import proofs.«162208_g2000506799508755_pallasbulk_1325_14_alg».proof.Proof.SeWhole

set_option maxRecDepth 16384

noncomputable section

namespace Cert.KernelIdeal.SeRun

open Idealize.ShloMosaic Idealize.ShloMosaic.TcCoe Idealize.ShloMosaic.ValueIdx Idealize.SL.Sem
open Cert.KernelIdeal Cert.KernelIdeal.Gen Cert.SeGate
open Idealize.ShloMosaic.Pipeline (Dat Cfg Window)
open Idealize.ShloMosaic.StableHlo

variable (m : (ℓ : Loc nD τ sig) → Buf (Elt Ideal) ℓ) (ρ : Dev nD → PrngReg)

/-- x with its positions merged, as the region finds it. -/
theorem V_v0 (c : Dev nD) : V m c main_v0
    = shapeCast S64x512x784 (m ((c : Thread nD τ).loc main_arg0)) shapeCasts_S64x512x28x28_S64x512x784 := by
  show StableHlo.after hostOps0 (fun b => m (c, b)) (Proc.devRef .tc main_v0) = _
  after_results
  rfl

/-- The first layer's weights transposed. -/
theorem V_v1 (c : Dev nD) : V m c main_v1
    = transpose S512x128 [1, 0] (m ((c : Thread nD τ).loc main_arg1)) transposes_S128x512_S512x128_1_0 := by
  show StableHlo.after hostOps0 (fun b => m (c, b)) (Proc.devRef .tc main_v1) = _
  after_results

/-- The second layer's weights transposed. -/
theorem V_v2 (c : Dev nD) : V m c main_v2
    = transpose S128x512 [1, 0] (m ((c : Thread nD τ).loc main_arg3)) transposes_S512x128_S128x512_1_0 := by
  show StableHlo.after hostOps0 (fun b => m (c, b)) (Proc.devRef .tc main_v2) = _
  after_results

/-- The first bias as a row. -/
theorem V_v3 (c : Dev nD) : V m c main_v3
    = shapeCast S1x128 (m ((c : Thread nD τ).loc main_arg2)) shapeCasts_S128_S1x128 := by
  show StableHlo.after hostOps0 (fun b => m (c, b)) (Proc.devRef .tc main_v3) = _
  after_results
  rfl

/-- The second bias as a row. -/
theorem V_v4 (c : Dev nD) : V m c main_v4
    = shapeCast S1x512 (m ((c : Thread nD τ).loc main_arg4)) shapeCasts_S512_S1x512 := by
  show StableHlo.after hostOps0 (fun b => m (c, b)) (Proc.devRef .tc main_v4) = _
  after_results
  rfl

/-- The array the kernel leaves is the merged result over the raw arguments: each transposed weight read at (row,
    column) is the weight at (column, row), each bias row read at (0, k) is the bias at k. -/
theorem final_merged (c : Dev nD) :
    (dats (F := Ideal) m 0 c).arrAt 5 cfg0.N
      = merged (shapeCast S64x512x784 (m ((c : Thread nD τ).loc main_arg0)) shapeCasts_S64x512x28x28_S64x512x784)
          (m ((c : Thread nD τ).loc main_arg1)) (m ((c : Thread nD τ).loc main_arg2))
          (m ((c : Thread nD τ).loc main_arg3)) (m ((c : Thread nD τ).loc main_arg4)) := by
  rw [SeArr.final, V_v0, V_v1, V_v2, V_v3, V_v4]
  unfold SeArr.scaledOf merged
  have e1 : (fun (c' : Fin 512) (r' : Fin 128) => transpose S512x128 [1, 0] (m ((c : Thread nD τ).loc main_arg1)) transposes_S128x512_S512x128_1_0 (ix2 c' r'))
      = fun c' r' => (m ((c : Thread nD τ).loc main_arg1) : FVec Ideal S128x512 .f32) (ix2 r' c') :=
    funext fun c' => funext fun r' => transpose_ix2_apply _ _ c' r'
  have e2 : (fun (r' : Fin 128) => shapeCast S1x128 (m ((c : Thread nD τ).loc main_arg2)) shapeCasts_S128_S1x128 (ix2 (0 : Fin 1) r'))
      = fun r' => (m ((c : Thread nD τ).loc main_arg2) : FVec Ideal S128 .f32) (ix1 r') :=
    funext fun r' => shapeCast_a_1a_apply _ _ (0 : Fin 1) r'
  have e3 : (fun (c' : Fin 512) (r' : Fin 128) => transpose S128x512 [1, 0] (m ((c : Thread nD τ).loc main_arg3)) transposes_S512x128_S128x512_1_0 (ix2 r' c'))
      = fun c' r' => (m ((c : Thread nD τ).loc main_arg3) : FVec Ideal S512x128 .f32) (ix2 c' r') :=
    funext fun c' => funext fun r' => transpose_ix2_apply _ _ r' c'
  have e4 : (fun (c' : Fin 512) => shapeCast S1x512 (m ((c : Thread nD τ).loc main_arg4)) shapeCasts_S512_S1x512 (ix2 (0 : Fin 1) c'))
      = fun c' => (m ((c : Thread nD τ).loc main_arg4) : FVec Ideal S512 .f32) (ix1 c') :=
    funext fun c' => shapeCast_a_1a_apply _ _ (0 : Fin 1) c'
  rw [e1, e2, e3, e4]

/-- The program's result after the lines that follow the kernel: the kernel's array with its positions split back. -/
theorem tail_eq (c : Dev nD) :
    Pipeline.afterTail₀ cfgs (dats (F := Ideal) m) 0 (V0 m) [hostOps1] c main_v6
      = shapeCast S64x512x28x28 ((dats (F := Ideal) m 0 c).arrAt 5 cfg0.N) shapeCasts_S64x512x784_S64x512x28x28 := by
  unfold Pipeline.afterTail₀
  show StableHlo.after hostOps1 _ (Proc.devRef .tc main_v6) = _
  after_results
  rw [Pipeline.withArrays_arr spec0 launch0.win.arr_inj c _ _ 5]
  rfl

/-- THE RUN: every weakly fair execution terminates with the result at the whole result of the arguments, and the
    arguments unchanged. -/
theorem run : θ_run defs (onTc (τ := τ) (main (F := Ideal))) ⟨m, fun _ => 0, ρ⟩ (fun r => ∀ c : Dev nD,
      r.2.mem ((c.tc : Thread nD τ).loc main_v6)
        = whole (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
            shapeCasts_S64x512x28x28_S64x512x784 shapeCasts_S64x512x784_S64x512x28x28
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v6 (Pipeline.mem_restRefs_of main_v6 (by decide) (by decide))).trans
        ((tail_eq m c).trans (by rw [final_merged]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.SeRun

end
-- ==== Proof.SeRefPay.lean ====
/-
  The row-at-a-time kernel's body, read at an index.

  The body holds one batch row x0(0, c, p), the transposed first-layer weights x1(c, r), the second-layer weights
  w2(c, r) as given, the first bias b1(0, r) and the second bias as a column b2(c, 0). Each dense layer is a product of
  a broadcast column or row with the weights followed by a sum over one axis, the summed axis kept as a unit axis.
  Stage by stage the values are named and read at an index whose unit coordinates are zero; the stored value at
  (0, c, p) is x0(0, c, p) times the gate of the row at channel c. The second layer multiplies weight first, which the
  commutativity of the product turns into the gate's spelling.
-/
import proofs.«162208_g2000506799508755_pallasbulk_1325_14_alg».proof.Proof.Gen.ReferenceIdeal.Skeleton
import proofs.«162208_g2000506799508755_pallasbulk_1325_14_alg».proof.Proof.LibKeepdims
import proofs.«162208_g2000506799508755_pallasbulk_1325_14_alg».proof.Proof.SeGate
import Idealize.ShloMosaic.Lib.ValueLayout
import Idealize.ShloMosaic.Lib.Pipeline.Value

noncomputable section

namespace Cert.ReferenceIdeal.SePay

open Idealize.ShloMosaic Idealize.ShloMosaic.ValueIdx Cert.ReferenceIdeal Cert.ReferenceIdeal.Gen Cert.SeGate

variable (x0 : FVec Ideal S1x512x784 .f32) (x1 : FVec Ideal S512x128 .f32) (w2 : FVec Ideal S512x128 .f32)
  (b1 : FVec Ideal S1x128 .f32) (b2 : FVec Ideal S512x1 .f32)

/-- The channel means of the row, as a column. -/
def means : FVec Ideal S1x512x1 .f32 :=
  mulf (shapeCast S1x512x1 (multiReduction .add [2] S1x512 (shapeCast S1x512x784 x0 shapeCasts_S1x512x784_S1x512x784) 0x00000000#32
      reduces_S1x512x784_S1x512 (.inl rfl) rfl) shapeCasts_S1x512_S1x512x1)
    (broadcast S1x512x1 (Scalar.ofBits (F := Ideal) .f32 0x3AA72F05#32))

/-- The first layer before its activation, as a row. -/
def layer1 : FVec Ideal S1x1x128 .f32 :=
  addf (shapeCast S1x1x128 (multiReduction .add [1] S1x128
        (mulf (broadcastTo S1x512x128 (means x0) broadcasts_S1x512x1_S1x512x128)
          (shapeCast S1x512x128 (shapeCast S512x128 x1 shapeCasts_S512x128_S512x128) shapeCasts_S512x128_S1x512x128))
        0x00000000#32 reduces_S1x512x128_S1x128 (.inl rfl) rfl) shapeCasts_S1x128_S1x1x128)
    (shapeCast S1x1x128 (shapeCast S1x128 b1 shapeCasts_S1x128_S1x128) shapeCasts_S1x128_S1x1x128)

/-- The hidden activation. -/
def act : FVec Ideal S1x1x128 .f32 := mulf (layer1 x0 x1 b1) (logistic (layer1 x0 x1 b1))

/-- The gates of the row, as a column. -/
def gates : FVec Ideal S1x512x1 .f32 :=
  logistic (addf (shapeCast S1x512x1 (multiReduction .add [2] S1x512
        (mulf (shapeCast S1x512x128 w2 shapeCasts_S512x128_S1x512x128)
          (broadcastTo S1x512x128 (act x0 x1 b1) broadcasts_S1x1x128_S1x512x128))
        0x00000000#32 reduces_S1x512x128_S1x512 (.inl rfl) rfl) shapeCasts_S1x512_S1x512x1)
    (shapeCast S1x512x1 (shapeCast S512x1 b2 shapeCasts_S512x1_S512x1) shapeCasts_S512x1_S1x512x1))

/-- The stored value is the row scaled by its gates. -/
theorem pay_eq : k0_pay1 (F := Ideal) x0 x1 w2 b1 b2
    = mulf (shapeCast S1x512x784 x0 shapeCasts_S1x512x784_S1x512x784)
        (broadcastTo S1x512x784 (gates x0 x1 w2 b1 b2) broadcasts_S1x512x1_S1x512x784) := rfl

/-- The mean of the row at channel `c`. -/
theorem means_apply (c : Fin 512) :
    means x0 (ix3 (0 : Fin 1) c (0 : Fin 1)) = mean (fun c' p' => x0 (ix3 (0 : Fin 1) c' p')) c := by
  show shapeCast S1x512x1 (multiReduction .add [2] S1x512 (shapeCast S1x512x784 x0 shapeCasts_S1x512x784_S1x512x784) 0x00000000#32
      reduces_S1x512x784_S1x512 (.inl rfl) rfl) shapeCasts_S1x512_S1x512x1 (ix3 (0 : Fin 1) c (0 : Fin 1)) * kappa = _
  refine congrArg (· * kappa) ((Cert.LibKeepdims.shapeCast_ab_ab1_apply _ _ (0 : Fin 1) c (0 : Fin 1)).trans
    ((Cert.LibKeepdims.sum_last_apply _ _ _ _ _ (0 : Fin 1) c).trans ?_))
  exact Finset.sum_congr rfl fun p _ => congrFun (shapeCast_self x0 _) (ix3 (0 : Fin 1) c p)

/-- The first layer at hidden unit `r`. -/
theorem layer1_apply (r : Fin 128) :
    layer1 x0 x1 b1 (ix3 (0 : Fin 1) (0 : Fin 1) r)
      = pre1 (fun c' p' => x0 (ix3 (0 : Fin 1) c' p')) (fun c' r' => x1 (ix2 c' r')) (fun r' => b1 (ix2 (0 : Fin 1) r')) r := by
  have hs : shapeCast S1x1x128 (multiReduction .add [1] S1x128
        (mulf (broadcastTo S1x512x128 (means x0) broadcasts_S1x512x1_S1x512x128)
          (shapeCast S1x512x128 (shapeCast S512x128 x1 shapeCasts_S512x128_S512x128) shapeCasts_S512x128_S1x512x128))
        0x00000000#32 reduces_S1x512x128_S1x128 (.inl rfl) rfl) shapeCasts_S1x128_S1x1x128 (ix3 (0 : Fin 1) (0 : Fin 1) r)
      = ∑ c' : Fin 512, mean (fun c' p' => x0 (ix3 (0 : Fin 1) c' p')) c' * x1 (ix2 c' r) := by
    refine (shapeCast_ab_1ab_apply _ _ (0 : Fin 1) (0 : Fin 1) r).trans
      ((Cert.LibKeepdims.sum_middle_apply _ _ _ _ _ (0 : Fin 1) r).trans (Finset.sum_congr rfl fun c' _ => ?_))
    show broadcastTo S1x512x128 (means x0) broadcasts_S1x512x1_S1x512x128 (ix3 (0 : Fin 1) c' r)
        * shapeCast S1x512x128 (shapeCast S512x128 x1 shapeCasts_S512x128_S512x128) shapeCasts_S512x128_S1x512x128 (ix3 (0 : Fin 1) c' r) = _
    rw [Cert.LibKeepdims.broadcastTo_ab1_abc_apply, shapeCast_ab_1ab_apply, shapeCast_self, means_apply]
  have hb : shapeCast S1x1x128 (shapeCast S1x128 b1 shapeCasts_S1x128_S1x128) shapeCasts_S1x128_S1x1x128 (ix3 (0 : Fin 1) (0 : Fin 1) r)
      = b1 (ix2 (0 : Fin 1) r) :=
    (shapeCast_ab_1ab_apply _ _ (0 : Fin 1) (0 : Fin 1) r).trans (congrFun (shapeCast_self b1 _) _)
  show _ + _ = _
  rw [hs, hb]
  rfl

/-- The hidden activation at unit `r`. -/
theorem act_apply (r : Fin 128) :
    act x0 x1 b1 (ix3 (0 : Fin 1) (0 : Fin 1) r)
      = hidden (fun c' p' => x0 (ix3 (0 : Fin 1) c' p')) (fun c' r' => x1 (ix2 c' r')) (fun r' => b1 (ix2 (0 : Fin 1) r')) r := by
  show layer1 x0 x1 b1 (ix3 (0 : Fin 1) (0 : Fin 1) r) * Ideal.logistic (layer1 x0 x1 b1 (ix3 (0 : Fin 1) (0 : Fin 1) r)) = _
  rw [layer1_apply]
  rfl

/-- The gate at channel `c`; the second layer's weights are read as given, the bias down its column. -/
theorem gates_apply (c : Fin 512) :
    gates x0 x1 w2 b1 b2 (ix3 (0 : Fin 1) c (0 : Fin 1))
      = gate (fun c' p' => x0 (ix3 (0 : Fin 1) c' p')) (fun c' r' => x1 (ix2 c' r')) (fun r' => b1 (ix2 (0 : Fin 1) r'))
          (fun c' r' => w2 (ix2 c' r')) (fun c' => b2 (ix2 c' (0 : Fin 1))) c := by
  have hs : shapeCast S1x512x1 (multiReduction .add [2] S1x512
        (mulf (shapeCast S1x512x128 w2 shapeCasts_S512x128_S1x512x128)
          (broadcastTo S1x512x128 (act x0 x1 b1) broadcasts_S1x1x128_S1x512x128))
        0x00000000#32 reduces_S1x512x128_S1x512 (.inl rfl) rfl) shapeCasts_S1x512_S1x512x1 (ix3 (0 : Fin 1) c (0 : Fin 1))
      = ∑ r' : Fin 128, w2 (ix2 c r') * hidden (fun c' p' => x0 (ix3 (0 : Fin 1) c' p')) (fun c' r' => x1 (ix2 c' r'))
          (fun r' => b1 (ix2 (0 : Fin 1) r')) r' := by
    refine (Cert.LibKeepdims.shapeCast_ab_ab1_apply _ _ (0 : Fin 1) c (0 : Fin 1)).trans
      ((Cert.LibKeepdims.sum_last_apply _ _ _ _ _ (0 : Fin 1) c).trans (Finset.sum_congr rfl fun r' _ => ?_))
    show shapeCast S1x512x128 w2 shapeCasts_S512x128_S1x512x128 (ix3 (0 : Fin 1) c r')
        * broadcastTo S1x512x128 (act x0 x1 b1) broadcasts_S1x1x128_S1x512x128 (ix3 (0 : Fin 1) c r') = _
    rw [shapeCast_ab_1ab_apply, Cert.LibKeepdims.broadcastTo_11b_1ab_apply, act_apply]
  have hb : shapeCast S1x512x1 (shapeCast S512x1 b2 shapeCasts_S512x1_S512x1) shapeCasts_S512x1_S1x512x1 (ix3 (0 : Fin 1) c (0 : Fin 1))
      = b2 (ix2 c (0 : Fin 1)) :=
    (shapeCast_ab_1ab_apply _ _ (0 : Fin 1) c (0 : Fin 1)).trans (congrFun (shapeCast_self b2 _) _)
  show Ideal.logistic (_ + _) = _
  rw [hs, hb]
  exact gate_eq_weight_first _ _ _ (fun c' r' => w2 (ix2 c' r')) (fun c' => b2 (ix2 c' (0 : Fin 1))) c

/-- THE STORED VALUE at channel `c`, position `p`: the row's element times the gate of its channel. -/
theorem pay_apply (c : Fin 512) (p : Fin 784) :
    k0_pay1 (F := Ideal) x0 x1 w2 b1 b2 (ix3 (0 : Fin 1) c p)
      = x0 (ix3 (0 : Fin 1) c p) * gate (fun c' p' => x0 (ix3 (0 : Fin 1) c' p')) (fun c' r' => x1 (ix2 c' r'))
          (fun r' => b1 (ix2 (0 : Fin 1) r')) (fun c' r' => w2 (ix2 c' r')) (fun c' => b2 (ix2 c' (0 : Fin 1))) c := by
  rw [pay_eq]
  show shapeCast S1x512x784 x0 shapeCasts_S1x512x784_S1x512x784 (ix3 (0 : Fin 1) c p)
      * broadcastTo S1x512x784 (gates x0 x1 w2 b1 b2) broadcasts_S1x512x1_S1x512x784 (ix3 (0 : Fin 1) c p) = _
  rw [shapeCast_self, Cert.LibKeepdims.broadcastTo_ab1_abc_apply, gates_apply]

end Cert.ReferenceIdeal.SePay

end
-- ==== Proof.SeRefArr.lean ====
/-
  The row-at-a-time kernel's output array after the run.

  Grid point t handles batch row t: its input block of x and its output block are that row of the arrays, and the
  weight and bias windows are the whole arrays at every point. What point t writes back is the block of ONE function
  of the arrays the region finds — every element of x scaled by the gate of its own batch row and channel — and the
  sixty-four rows tile the array, so the array ends holding that function.
-/
import proofs.«162208_g2000506799508755_pallasbulk_1325_14_alg».proof.Proof.Gen.ReferenceIdeal.Frame
import proofs.«162208_g2000506799508755_pallasbulk_1325_14_alg».proof.Proof.SeRefPay
import Idealize.ShloMosaic.Lib.Pipeline.Value
import Idealize.ShloMosaic.Lib.StableHlo.Run
import Idealize.ShloMosaic.Lib.ValueLayout

set_option maxRecDepth 16384

noncomputable section

namespace Cert.ReferenceIdeal.SeArr

open Idealize.ShloMosaic Idealize.ShloMosaic.TcCoe Idealize.ShloMosaic.ValueIdx Idealize.SL.Sem
open Cert.ReferenceIdeal Cert.ReferenceIdeal.Gen Cert.SeGate
open Idealize.ShloMosaic.Pipeline (Dat Cfg Window)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The output array as a function of the arrays the region finds: x, the transposed first-layer weights, the first
    bias as a row, the second-layer weights as given, the second bias as a column. -/
def scaledOf (X : FVec Ideal S64x512x784 .f32) (W1t : FVec Ideal S512x128 .f32) (B1 : FVec Ideal S1x128 .f32)
    (W2 : FVec Ideal S512x128 .f32) (B2 : FVec Ideal S512x1 .f32) : S64x512x784.Idx → EReal :=
  scaledArr X (fun c' r' => W1t (ix2 c' r')) (fun r' => B1 (ix2 (0 : Fin 1) r')) (fun c' r' => W2 (ix2 c' r'))
    (fun c' => B2 (ix2 c' (0 : Fin 1)))

/-- A block of one batch row, row T, with the whole weight and bias arrays: the body's stored value at a block index is
    the output function at the array index the block index stands for. -/
theorem block_value (X : FVec Ideal S64x512x784 .f32) (W1t : FVec Ideal S512x128 .f32) (B1 : FVec Ideal S1x128 .f32)
    (W2 : FVec Ideal S512x128 .f32) (B2 : FVec Ideal S512x1 .f32)
    (x0 : FVec Ideal S1x512x784 .f32) (x1 : FVec Ideal S512x128 .f32) (x2 : FVec Ideal S1x128 .f32)
    (x3 : FVec Ideal S512x128 .f32) (x4 : FVec Ideal S512x1 .f32) (T : ℕ) (e : S1x512x784.Idx → S64x512x784.Idx)
    (he0 : ∀ y, (e y 0).val = T + (y 0).val) (he1 : ∀ y, (e y 1).val = (y 1).val) (he2 : ∀ y, (e y 2).val = (y 2).val)
    (h0 : ∀ y, x0 y = X (e y)) (h1 : x1 = W1t) (h2 : x2 = B1) (h3 : x3 = W2) (h4 : x4 = B2) (j : S1x512x784.Idx) :
    k0_pay1 (F := Ideal) x0 x1 x3 x2 x4 j = scaledOf X W1t B1 W2 B2 (e j) := by
  subst h1 h2 h3 h4
  obtain ⟨u, c, p, rfl⟩ : ∃ (u : Fin 1) (c : Fin 512) (p : Fin 784), j = ix3 u c p := ⟨j 0, j 1, j 2, eq_ix3 j⟩
  obtain rfl : u = 0 := Subsingleton.elim _ _
  rw [SePay.pay_apply]
  have hlt : (e (ix3 (0 : Fin 1) c p) 0).val < 64 := (e (ix3 (0 : Fin 1) c p) 0).isLt
  have hv : (e (ix3 (0 : Fin 1) c p) 0).val = T + 0 := he0 (ix3 (0 : Fin 1) c p)
  have hB : T < 64 := by omega
  have hE : ∀ (c' : Fin 512) (p' : Fin 784), e (ix3 (0 : Fin 1) c' p') = ix3 (⟨T, hB⟩ : Fin 64) c' p' := fun c' p' =>
    funext fun a => Fin.ext (match a with | ⟨0, _⟩ => (he0 _).trans (Nat.add_zero T) | ⟨1, _⟩ => he1 _ | ⟨2, _⟩ => he2 _)
  have hrow : (fun (c' : Fin 512) (p' : Fin 784) => x0 (ix3 (0 : Fin 1) c' p'))
      = fun c' p' => X (ix3 (⟨T, hB⟩ : Fin 64) c' p') :=
    funext fun c' => funext fun p' => (h0 _).trans (congrArg X (hE c' p'))
  rw [hE c p]
  unfold scaledOf
  rw [scaledArr_apply]
  unfold scaled
  rw [h0 (ix3 (0 : Fin 1) c p), hE c p, hrow]

/-- The printed index maps over the grid: the two windows of x move one batch row per point, the weight and bias
    windows stay at the origin. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- WHAT POINT `t` WRITES BACK is block `t` of the output function of the arrays as the region finds them. -/
theorem flushed_eq (c : Dev nD) (t : Fin cfg0.N) :
    (dats (F := Ideal) m 0 c).flushed 5 t = ((cfg0.win 5).blk t).view.read (Elt Ideal)
      (scaledOf (V m c main_v0) (V m c main_v1) (V m c main_v2) (V m c main_arg3) (V m c main_v3)) := by
  show (cfg0.win 5).cut (grid0.coords t) ((dats m 0 c).after 5 t) = _
  rw [after0_5]
  unfold out0_5
  rw [View.canon_unit_zero zero3]
  simp only [View.ld_unit_zero (S := S1x512x784) zero3, View.ld_unit_zero (S := S512x128) zero2,
    View.ld_unit_zero (S := S1x128) zero2, View.ld_unit_zero (S := S512x1) zero2]
  obtain ⟨a00, a01, a02, a50, a51, a52, a10, a11, a20, a21, a30, a31, a40, a41⟩ := idx_facts t
  funext j
  show k0_pay1 (F := Ideal) (iblk m c 0 t) (iblk m c 1 t) (iblk m c 3 t) (iblk m c 2 t) (iblk m c 4 t) j
      = scaledOf (V m c main_v0) (V m c main_v1) (V m c main_v2) (V m c main_arg3) (V m c main_v3) (((cfg0.win 5).blk t).view.emb j)
  refine block_value (V m c main_v0) (V m c main_v1) (V m c main_v2) (V m c main_arg3) (V m c main_v3)
    (iblk m c 0 t) (iblk m c 1 t) (iblk m c 2 t) (iblk m c 3 t) (iblk m c 4 t) t.val (((cfg0.win 5).blk t).view.emb)
    ?_ ?_ ?_ ?_ ?_ ?_ ?_ ?_ j
  · intro y
    show win0_5.index t (0 : Fin 3) * 1 + 1 * (y 0).val = t.val + (y 0).val
    omega
  · intro y
    show win0_5.index t (1 : Fin 3) * 512 + 1 * (y 1).val = (y 1).val
    omega
  · intro y
    show win0_5.index t (2 : Fin 3) * 784 + 1 * (y 2).val = (y 2).val
    omega
  · intro y
    show V m c main_v0 (((cfg0.win 0).blk t).view.emb y) = V m c main_v0 (((cfg0.win 5).blk t).view.emb y)
    refine congrArg _ (funext fun a => Fin.ext ?_)
    match a with
    | ⟨0, _⟩ =>
      show win0_0.index t (0 : Fin 3) * 1 + 1 * (y 0).val = win0_5.index t (0 : Fin 3) * 1 + 1 * (y 0).val
      omega
    | ⟨1, _⟩ =>
      show win0_0.index t (1 : Fin 3) * 512 + 1 * (y 1).val = win0_5.index t (1 : Fin 3) * 512 + 1 * (y 1).val
      omega
    | ⟨2, _⟩ =>
      show win0_0.index t (2 : Fin 3) * 784 + 1 * (y 2).val = win0_5.index t (2 : Fin 3) * 784 + 1 * (y 2).val
      omega
  · funext y
    show V m c main_v1 (((cfg0.win 1).blk t).view.emb y) = V m c main_v1 y
    refine congrArg _ (funext fun a => Fin.ext ?_)
    match a with
    | ⟨0, _⟩ => show win0_1.index t (0 : Fin 2) * 512 + 1 * (y 0).val = (y 0).val; omega
    | ⟨1, _⟩ => show win0_1.index t (1 : Fin 2) * 128 + 1 * (y 1).val = (y 1).val; omega
  · funext y
    show V m c main_v2 (((cfg0.win 2).blk t).view.emb y) = V m c main_v2 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · funext y
    show V m c main_arg3 (((cfg0.win 3).blk t).view.emb y) = V m c main_arg3 y
    refine congrArg _ (funext fun a => Fin.ext ?_)
    match a with
    | ⟨0, _⟩ => show win0_3.index t (0 : Fin 2) * 512 + 1 * (y 0).val = (y 0).val; omega
    | ⟨1, _⟩ => show win0_3.index t (1 : Fin 2) * 128 + 1 * (y 1).val = (y 1).val; omega
  · funext y
    show V m c main_v3 (((cfg0.win 4).blk t).view.emb y) = V m c main_v3 y
    refine congrArg _ (funext fun a => Fin.ext ?_)
    match a with
    | ⟨0, _⟩ => show win0_4.index t (0 : Fin 2) * 512 + 1 * (y 0).val = (y 0).val; omega
    | ⟨1, _⟩ => show win0_4.index t (1 : Fin 2) * 1 + 1 * (y 1).val = (y 1).val; omega

/-- An index of the array is in point `t`'s block iff each coordinate is in the block's range on its axis. -/
theorem mem_blk (t : Fin cfg0.N) (i : S64x512x784.Idx) :
    i ∈ ((cfg0.win 5).blk t).view.set ↔ ∀ a : Fin 3, win0_5.index t a * S1x512x784.size a ≤ (i a).val
      ∧ (i a).val < win0_5.index t a * S1x512x784.size a + S1x512x784.size a := by
  show i ∈ ((View.whole main_v4).slice (win0_5.rect t)).set ↔ _
  rw [View.set_slice_whole, Rect.mem_set_unit]
  exact Iff.rfl

/-- Every index of the array lies in the block of the point that is its batch row. -/
theorem cover (i : S64x512x784.Idx) :
    ∃ t : Fin cfg0.N, (cfg0.win 5).flush t = true ∧ i ∈ ((cfg0.win 5).blk t).view.set := by
  have h0 : (i 0).val < 64 := (i 0).isLt
  have h1 : (i 1).val < 512 := (i 1).isLt
  have h2 : (i 2).val < 784 := (i 2).isLt
  have hN : grid0.N = 64 := N_0
  have ht : (i 0).val < grid0.N := by omega
  obtain ⟨-, -, -, a50, a51, a52, -⟩ := idx_facts (⟨(i 0).val, ht⟩ : Fin cfg0.N)
  refine ⟨⟨(i 0).val, ht⟩, flush0_5 _, ?_⟩
  rw [mem_blk]
  intro a
  match a with
  | ⟨0, _⟩ =>
    show win0_5.index ⟨(i 0).val, ht⟩ (0 : Fin 3) * 1 ≤ (i 0).val ∧ (i 0).val < win0_5.index ⟨(i 0).val, ht⟩ (0 : Fin 3) * 1 + 1
    have hv : win0_5.index ⟨(i 0).val, ht⟩ (0 : Fin 3) = (i 0).val := a50
    omega
  | ⟨1, _⟩ =>
    show win0_5.index ⟨(i 0).val, ht⟩ (1 : Fin 3) * 512 ≤ (i 1).val ∧ (i 1).val < win0_5.index ⟨(i 0).val, ht⟩ (1 : Fin 3) * 512 + 512
    omega
  | ⟨2, _⟩ =>
    show win0_5.index ⟨(i 0).val, ht⟩ (2 : Fin 3) * 784 ≤ (i 2).val ∧ (i 2).val < win0_5.index ⟨(i 0).val, ht⟩ (2 : Fin 3) * 784 + 784
    omega

/-- THE ARRAY after the run: the output function of the arrays the region finds. -/
theorem final (c : Dev nD) :
    (dats (F := Ideal) m 0 c).arrAt 5 cfg0.N
      = scaledOf (V m c main_v0) (V m c main_v1) (V m c main_v2) (V m c main_arg3) (V m c main_v3) :=
  (dats m 0 c).arrAt_eq_of_cover 5 _ (fun t _ => flushed_eq m c t) cover

end Cert.ReferenceIdeal.SeArr

end
-- ==== Proof.SeRefRun.lean ====
/-
  The row-at-a-time program's run, with its result named.

  Before the kernel the program merges the two spatial axes of x, transposes the first layer's weights, turns the first
  bias into a row and the second into a column, and passes the second layer's weights as given; after it, it splits the
  positions back. Reading the transpose, the row and the column at an index, the array the kernel leaves is the merged
  result over the raw arguments, and the program's result is the whole result.
-/
import proofs.«162208_g2000506799508755_pallasbulk_1325_14_alg».proof.Proof.SeRefArr
import proofs.«162208_g2000506799508755_pallasbulk_1325_14_alg».proof.Proof.SeWhole

set_option maxRecDepth 16384

noncomputable section

namespace Cert.ReferenceIdeal.SeRun

open Idealize.ShloMosaic Idealize.ShloMosaic.TcCoe Idealize.ShloMosaic.ValueIdx Idealize.SL.Sem
open Cert.ReferenceIdeal Cert.ReferenceIdeal.Gen Cert.SeGate
open Idealize.ShloMosaic.Pipeline (Dat Cfg Window)
open Idealize.ShloMosaic.StableHlo

variable (m : (ℓ : Loc nD τ sig) → Buf (Elt Ideal) ℓ) (ρ : Dev nD → PrngReg)

/-- x with its positions merged, as the region finds it. -/
theorem V_v0 (c : Dev nD) : V m c main_v0
    = shapeCast S64x512x784 (m ((c : Thread nD τ).loc main_arg0)) shapeCasts_S64x512x28x28_S64x512x784 := by
  show StableHlo.after hostOps0 (fun b => m (c, b)) (Proc.devRef .tc main_v0) = _
  after_results
  rfl

/-- The first layer's weights transposed. -/
theorem V_v1 (c : Dev nD) : V m c main_v1
    = transpose S512x128 [1, 0] (m ((c : Thread nD τ).loc main_arg1)) transposes_S128x512_S512x128_1_0 := by
  show StableHlo.after hostOps0 (fun b => m (c, b)) (Proc.devRef .tc main_v1) = _
  after_results

/-- The first bias as a row. -/
theorem V_v2 (c : Dev nD) : V m c main_v2
    = shapeCast S1x128 (m ((c : Thread nD τ).loc main_arg2)) shapeCasts_S128_S1x128 := by
  show StableHlo.after hostOps0 (fun b => m (c, b)) (Proc.devRef .tc main_v2) = _
  after_results
  rfl

/-- The second bias as a column. -/
theorem V_v3 (c : Dev nD) : V m c main_v3
    = shapeCast S512x1 (m ((c : Thread nD τ).loc main_arg4)) shapeCasts_S512_S512x1 := by
  show StableHlo.after hostOps0 (fun b => m (c, b)) (Proc.devRef .tc main_v3) = _
  after_results
  rfl

/-- The array the kernel leaves is the merged result over the raw arguments: the transposed weight read at (column,
    unit) is the weight at (unit, column), the bias row read at (0, r) is the bias at r, the bias column read at (c, 0)
    is the bias at c. -/
theorem final_merged (c : Dev nD) :
    (dats (F := Ideal) m 0 c).arrAt 5 cfg0.N
      = merged (shapeCast S64x512x784 (m ((c : Thread nD τ).loc main_arg0)) shapeCasts_S64x512x28x28_S64x512x784)
          (m ((c : Thread nD τ).loc main_arg1)) (m ((c : Thread nD τ).loc main_arg2))
          (m ((c : Thread nD τ).loc main_arg3)) (m ((c : Thread nD τ).loc main_arg4)) := by
  rw [SeArr.final, V_v0, V_v1, V_v2, V_v3, V_main_arg3]
  unfold SeArr.scaledOf merged
  have e1 : (fun (c' : Fin 512) (r' : Fin 128) => transpose S512x128 [1, 0] (m ((c : Thread nD τ).loc main_arg1)) transposes_S128x512_S512x128_1_0 (ix2 c' r'))
      = fun c' r' => (m ((c : Thread nD τ).loc main_arg1) : FVec Ideal S128x512 .f32) (ix2 r' c') :=
    funext fun c' => funext fun r' => transpose_ix2_apply _ _ c' r'
  have e2 : (fun (r' : Fin 128) => shapeCast S1x128 (m ((c : Thread nD τ).loc main_arg2)) shapeCasts_S128_S1x128 (ix2 (0 : Fin 1) r'))
      = fun r' => (m ((c : Thread nD τ).loc main_arg2) : FVec Ideal S128 .f32) (ix1 r') :=
    funext fun r' => shapeCast_a_1a_apply _ _ (0 : Fin 1) r'
  have e4 : (fun (c' : Fin 512) => shapeCast S512x1 (m ((c : Thread nD τ).loc main_arg4)) shapeCasts_S512_S512x1 (ix2 c' (0 : Fin 1)))
      = fun c' => (m ((c : Thread nD τ).loc main_arg4) : FVec Ideal S512 .f32) (ix1 c') :=
    funext fun c' => Cert.LibKeepdims.shapeCast_a_a1_apply _ _ c' (0 : Fin 1)
  rw [e1, e2, e4]

/-- The program's result after the lines that follow the kernel: the kernel's array with its positions split back. -/
theorem tail_eq (c : Dev nD) :
    Pipeline.afterTail₀ cfgs (dats (F := Ideal) m) 0 (V0 m) [hostOps1] c main_v5
      = shapeCast S64x512x28x28 ((dats (F := Ideal) m 0 c).arrAt 5 cfg0.N) shapeCasts_S64x512x784_S64x512x28x28 := by
  unfold Pipeline.afterTail₀
  show StableHlo.after hostOps1 _ (Proc.devRef .tc main_v5) = _
  after_results
  rw [Pipeline.withArrays_arr spec0 launch0.win.arr_inj c _ _ 5]
  rfl

/-- THE RUN: every weakly fair execution terminates with the result at the whole result of the arguments, and the
    arguments unchanged. -/
theorem run : θ_run defs (onTc (τ := τ) (main (F := Ideal))) ⟨m, fun _ => 0, ρ⟩ (fun r => ∀ c : Dev nD,
      r.2.mem ((c.tc : Thread nD τ).loc main_v5)
        = whole (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
            shapeCasts_S64x512x28x28_S64x512x784 shapeCasts_S64x512x784_S64x512x28x28
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v5 (Pipeline.mem_restRefs_of main_v5 (by decide) (by decide))).trans
        ((tail_eq m c).trans (by rw [final_merged]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.ReferenceIdeal.SeRun

end
-- ==== Proof.lean ====
/- The proof of `Cert.Claim`: a squeeze-and-excitation block computed two ways.

   Both programs merge the two spatial axes of x [64, 512, 28, 28] into 784 positions, run one kernel over the batch
   and split the positions back. For a batch row the kernel takes the channel means s(c) = (∑ p, x(c, p)) · κ, the
   hidden activation h(r) = h0(r) · σ(h0(r)) with h0(r) = ∑ c, s(c) · W1(r, c) + b1(r), the gate
   e(c) = σ(∑ r, h(r) · W2(c, r) + b2(c)), and writes x(c, p) · e(c).

   The first program handles four batch rows per grid point and computes both dense layers as matrix products into
   zero accumulators, over weights it transposed beforehand and biases laid out as rows. The second handles one batch
   row per grid point and computes each layer as a broadcast product summed over one axis, over W1 transposed, W2 as
   given, b1 as a row and b2 as a column; its second layer multiplies weight first. At the ideal values a matrix
   product into a zero accumulator and a product summed over an axis are the same finite sum, a transposed matrix read
   at (i, j) is the matrix at (j, i), a bias row or column read at its one free coordinate is the bias there, and the
   product of extended reals commutes. So both kernels leave, in every block, the block of ONE function of the
   arguments, their blocks tile the batch, and both programs end at the same whole result. No step needs the
   arguments to be finite.

   Modules: SeGate (the gate of a row, the scaled array), SeWhole (the whole result over the raw arguments),
   LibKeepdims and LibMatmulPlain (layouts, sums and the matrix product read at an index), SeKernelPay / SeRefPay (each
   body's stored value at an index), SeKernelArr / SeRefArr (each output array after the run), SeKernelRun / SeRefRun
   (each program's run with its result named). The frames are the generated ones; nothing was rewritten when the
   idealized kernel was printed, so the preservation claim is trivial. -/
import proofs.«162208_g2000506799508755_pallasbulk_1325_14_alg».proof.Defs
import proofs.«162208_g2000506799508755_pallasbulk_1325_14_alg».proof.Proof.SeKernelRun
import proofs.«162208_g2000506799508755_pallasbulk_1325_14_alg».proof.Proof.SeRefRun
import proofs.«162208_g2000506799508755_pallasbulk_1325_14_alg».proof.Proof.Gen.Kernel
import proofs.«162208_g2000506799508755_pallasbulk_1325_14_alg».proof.Proof.Gen.Kernel.Skeleton
import proofs.«162208_g2000506799508755_pallasbulk_1325_14_alg».proof.Proof.Gen.Kernel.Launch
import proofs.«162208_g2000506799508755_pallasbulk_1325_14_alg».proof.Proof.Gen.Kernel.Points
import proofs.«162208_g2000506799508755_pallasbulk_1325_14_alg».proof.Proof.Gen.Kernel.Frame
import proofs.«162208_g2000506799508755_pallasbulk_1325_14_alg».proof.Proof.Gen.KernelIdeal
import proofs.«162208_g2000506799508755_pallasbulk_1325_14_alg».proof.Proof.Gen.KernelIdeal.Skeleton
import proofs.«162208_g2000506799508755_pallasbulk_1325_14_alg».proof.Proof.Gen.KernelIdeal.Launch
import proofs.«162208_g2000506799508755_pallasbulk_1325_14_alg».proof.Proof.Gen.KernelIdeal.Points
import proofs.«162208_g2000506799508755_pallasbulk_1325_14_alg».proof.Proof.Gen.KernelIdeal.Frame
import proofs.«162208_g2000506799508755_pallasbulk_1325_14_alg».proof.Proof.Gen.ReferenceIdeal
import proofs.«162208_g2000506799508755_pallasbulk_1325_14_alg».proof.Proof.Gen.ReferenceIdeal.Skeleton
import proofs.«162208_g2000506799508755_pallasbulk_1325_14_alg».proof.Proof.Gen.ReferenceIdeal.Launch
import proofs.«162208_g2000506799508755_pallasbulk_1325_14_alg».proof.Proof.Gen.ReferenceIdeal.Points
import proofs.«162208_g2000506799508755_pallasbulk_1325_14_alg».proof.Proof.Gen.ReferenceIdeal.Frame
import proofs.«162208_g2000506799508755_pallasbulk_1325_14_alg».proof.Proof.Gen.Pre_finite_inputs
import Idealize.ShloMosaic.Adequacy
import Idealize.ShloMosaic.Init

noncomputable section

namespace Cert.Proof

open Idealize.ShloMosaic Idealize.SL.Sem

/-- Each program runs to the end, faults nowhere and leaves its arguments as they were: the generated frames. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- Printing the idealized kernel rewrote no operation. -/
theorem preserves : Cert.preserves_Kernel_KernelIdeal := trivial

/-- From memories that agree on the arguments both programs end at the whole result of those arguments: each run
    names its result as the same function, and the agreement makes the two terms one. -/
theorem algebraic : Cert.algebraic_KernelIdeal_ReferenceIdeal := by
  intro m ρ m' ρ' _ hagree
  refine ⟨_, Cert.KernelIdeal.SeRun.run m ρ, ?_⟩
  refine (θ_run Cert.ReferenceIdeal.defs _ _).mono (fun r h c => ⟨(h c).1.trans ?_, (h c).2⟩)
    (Cert.ReferenceIdeal.SeRun.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
